-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x256 : Shape := ⟨2, ![128, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128x256 .f32) (main_arg5 : FVec F S256x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S10000x256 .f32) (main_arg1 : FVec F S10000x10000 .f32) (main_arg2 : FVec F S256x256 .f32) (main_arg3 : FVec F S256x128 .f32) (main_arg4 : FVec F S128x256 .f32) (main_arg5 : FVec F S256x256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x256 : Shape := ⟨2, ![128, 256]⟩
abbrev S10000x128 : Shape := ⟨2, ![10000, 128]⟩
abbrev S400x10000 : Shape := ⟨2, ![400, 10000]⟩
abbrev S400x128 : Shape := ⟨2, ![400, 128]⟩
abbrev S400x256 : Shape := ⟨2, ![400, 256]⟩

abbrev nBuf : Space → Nat
  | .hbm => 18
  | .vmem => 30
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S128x256, .f32⟩
  | .hbm, ⟨5, _⟩ => ⟨S256x256, .f32⟩
  | .hbm, ⟨6, _⟩ => ⟨S256x256, .bf16⟩
  | .hbm, ⟨7, _⟩ => ⟨S256x128, .bf16⟩
  | .hbm, ⟨8, _⟩ => ⟨S128x256, .bf16⟩
  | .hbm, ⟨9, _⟩ => ⟨S256x256, .bf16⟩
  | .hbm, ⟨10, _⟩ => ⟨S10000x256, .bf16⟩
  | .hbm, ⟨11, _⟩ => ⟨S10000x256, .bf16⟩
  | .hbm, ⟨12, _⟩ => ⟨S10000x10000, .bf16⟩
  | .hbm, ⟨13, _⟩ => ⟨S10000x128, .bf16⟩
  | .hbm, ⟨14, _⟩ => ⟨S10000x128, .f32⟩
  | .hbm, ⟨15, _⟩ => ⟨S10000x256, .bf16⟩
  | .hbm, ⟨16, _⟩ => ⟨S10000x256, .bf16⟩
  | .hbm, ⟨17, _⟩ => ⟨S10000x256, .f32⟩
  | .local _ .vmem, ⟨0, _⟩ => ⟨S10000x256, .bf16⟩
  | .local _ .vmem, ⟨1, _⟩ => ⟨S256x256, .bf16⟩
  | .local _ .vmem, ⟨2, _⟩ => ⟨S10000x256, .bf16⟩
  | .local _ .vmem, ⟨3, _⟩ => ⟨S400x10000, .f32⟩
  | .local _ .vmem, ⟨4, _⟩ => ⟨S400x10000, .f32⟩
  | .local _ .vmem, ⟨5, _⟩ => ⟨S10000x256, .bf16⟩
  | .local _ .vmem, ⟨6, _⟩ => ⟨S256x128, .bf16⟩
  | .local _ .vmem, ⟨7, _⟩ => ⟨S400x10000, .bf16⟩
  | .local _ .vmem, ⟨8, _⟩ => ⟨S400x10000, .bf16⟩
  | .local _ .vmem, ⟨9, _⟩ => ⟨S400x128, .bf16⟩
  | .local _ .vmem, ⟨10, _⟩ => ⟨S400x128, .bf16⟩
  | .local _ .vmem, ⟨11, _⟩ => ⟨S400x10000, .bf16⟩
  | .local _ .vmem, ⟨12, _⟩ => ⟨S400x10000, .bf16⟩
  | .local _ .vmem, ⟨13, _⟩ => ⟨S10000x128, .bf16⟩
  | .local _ .vmem, ⟨14, _⟩ => ⟨S128x256, .bf16⟩
  | .local _ .vmem, ⟨15, _⟩ => ⟨S400x128, .f32⟩
  | .local _ .vmem, ⟨16, _⟩ => ⟨S400x128, .f32⟩
  | .local _ .vmem, ⟨17, _⟩ => ⟨S400x256, .bf16⟩
  | .local _ .vmem, ⟨18, _⟩ => ⟨S400x256, .bf16⟩
  | .local _ .vmem, ⟨19, _⟩ => ⟨S400x10000, .bf16⟩
  | .local _ .vmem, ⟨20, _⟩ => ⟨S400x10000, .bf16⟩
  | .local _ .vmem, ⟨21, _⟩ => ⟨S10000x256, .bf16⟩
  | .local _ .vmem, ⟨22, _⟩ => ⟨S256x256, .bf16⟩
  | .local _ .vmem, ⟨23, _⟩ => ⟨S400x256, .bf16⟩
  | .local _ .vmem, ⟨24, _⟩ => ⟨S400x256, .bf16⟩
  | .local _ .vmem, ⟨25, _⟩ => ⟨S400x10000, .bf16⟩
  | .local _ .vmem, ⟨26, _⟩ => ⟨S400x10000, .bf16⟩
  | .local _ .vmem, ⟨27, _⟩ => ⟨S10000x256, .bf16⟩
  | .local _ .vmem, ⟨28, _⟩ => ⟨S400x256, .f32⟩
  | .local _ .vmem, ⟨29, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := .none

abbrev stage0_0 : Fin 1 → Memref sig .tc .vmem S10000x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x10000 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S256x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S10000x256_S10000x256_0_0 : (Rect.unit (s := S10000x256) ![0, 0] S10000x256.size inb_S10000x256_S10000x256_0_0).PackedRows (EltTy.packing .bf16)
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S400x256_S400x256_0_0 : ∀ a, (![0, 0] : Fin 2 → Nat) a + S400x256.size a ≤ S400x256.size a
  h_S400x256 : 0 < S400x256.numel
  packedbf16_S400x256_S400x256_0_0 : (Rect.unit (s := S400x256) ![0, 0] S400x256.size inb_S400x256_S400x256_0_0).PackedRows (EltTy.packing .bf16)
  dot_S10000x256_S256x256_S10000x256_1_0_0_1_n_n_wf : DotDims.WF S10000x256 S256x256 S10000x256 [1] [0] [0] [1] [] []
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  dot_S400x10000_S10000x128_S400x128_1_0_0_1_n_n_wf : DotDims.WF S400x10000 S10000x128 S400x128 [1] [0] [0] [1] [] []
  dot_S400x128_S128x256_S400x256_1_0_0_1_n_n_wf : DotDims.WF S400x128 S128x256 S400x256 [1] [0] [0] [1] [] []
  dot_S400x256_S256x256_S400x256_1_0_0_1_n_n_wf : DotDims.WF S400x256 S256x256 S400x256 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x10000.size a ≤ S10000x10000.size a
  hwx1_3 : ∀ i : grid1.Coords, EltTy.bits .bf16 = 32 ∨ (Rect.block (s := S10000x10000) S400x10000.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .bf16 = 32 ∨ (Rect.block (s := S10000x128) S400x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .bf16 = 32 ∨ (Rect.block (s := S128x256) S128x256.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x128.size a ≤ S10000x128.size a
  hwx2_3 : ∀ i : grid2.Coords, EltTy.bits .f32 = 32 ∨ (Rect.block (s := S10000x128) S400x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x256.size a ≤ S10000x256.size a
  hwx2_4 : ∀ i : grid2.Coords, EltTy.bits .bf16 = 32 ∨ (Rect.block (s := S10000x256) S400x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x256.size a ≤ S10000x256.size a
  hwx3_1 : ∀ i : grid3.Coords, EltTy.bits .bf16 = 32 ∨ (Rect.block (s := S10000x256) S10000x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .bf16 = 32 ∨ (Rect.block (s := S256x256) S256x256.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x256.size a ≤ S10000x256.size a
  hwx3_3 : ∀ i : grid3.Coords, EltTy.bits .bf16 = 32 ∨ (Rect.block (s := S10000x256) S400x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x256.size a ≤ S10000x256.size a
  hwx4_1 : ∀ i : grid4.Coords, EltTy.bits .bf16 = 32 ∨ (Rect.block (s := S10000x256) S10000x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x256.size a ≤ S10000x256.size a
  hwx4_2 : ∀ i : grid4.Coords, EltTy.bits .f32 = 32 ∨ (Rect.block (s := S10000x256) S400x256.size (cc4_transform_2 i) (hinb4_2 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x256_S400x256_1_0_0_1_n_n : DotDims S400x128 S128x256 S400x256 where
  lhsContracting := [1]
  rhsContracting := [0]
  lhsNonContracting := [0]
  rhsNonContracting := [1]
  lhsBatch := []
  rhsBatch := []
  wf := dot_S400x128_S128x256_S400x256_1_0_0_1_n_n_wf
def dot_S400x256_S256x256_S400x256_1_0_0_1_n_n : DotDims S400x256 S256x256 S400x256 where
  lhsContracting := [1]
  rhsContracting := [0]
  lhsNonContracting := [0]
  rhsNonContracting := [1]
  lhsBatch := []
  rhsBatch := []
  wf := dot_S400x256_S256x256_S400x256_1_0_0_1_n_n_wf

abbrev win0_0 : Pipeline.Window sig grid0 :=
  Pipeline.Window.whole (Memref.whole main_v4) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v5) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6_0) S400x10000.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6_1) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v6_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6_1) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7_0) S400x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v7_1) S400x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v6_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7_1) S10000x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v3) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S400x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v6_0) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S10000x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v9) S400x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256x128 : Shape := ⟨2, ![256, 128]⟩
abbrev S128x256 : Shape := ⟨2, ![128, 256]⟩
abbrev S_ : Shape := ⟨0, ![]⟩
abbrev S10000x128 : Shape := ⟨2, ![10000, 128]⟩

abbrev nBuf : Space → Nat
  | .hbm => 20
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256x128, .f32⟩
  | .hbm, ⟨4, _⟩ => ⟨S128x256, .f32⟩
  | .hbm, ⟨5, _⟩ => ⟨S256x256, .f32⟩
  | .hbm, ⟨6, _⟩ => ⟨S10000x256, .f32⟩
  | .hbm, ⟨7, _⟩ => ⟨S10000x256, .f32⟩
  | .hbm, ⟨8, _⟩ => ⟨S_, .f32⟩
  | .hbm, ⟨9, _⟩ => ⟨S10000x256, .f32⟩
  | .hbm, ⟨10, _⟩ => ⟨S10000x256, .f32⟩
  | .hbm, ⟨11, _⟩ => ⟨S10000x128, .f32⟩
  | .hbm, ⟨12, _⟩ => ⟨S10000x128, .f32⟩
  | .hbm, ⟨13, _⟩ => ⟨S10000x256, .f32⟩
  | .hbm, ⟨14, _⟩ => ⟨S10000x256, .f32⟩
  | .hbm, ⟨15, _⟩ => ⟨S_, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_cst : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []
  dot_S10000x256_S256x128_S10000x128_1_0_0_1_n_n_wf : DotDims.WF S10000x256 S256x128 S10000x128 [1] [0] [0] [1] [] []
  dot_S10000x10000_S10000x128_S10000x128_1_0_0_1_n_n_wf : DotDims.WF S10000x10000 S10000x128 S10000x128 [1] [0] [0] [1] [] []
  dot_S10000x128_S128x256_S10000x256_1_0_0_1_n_n_wf : DotDims.WF S10000x128 S128x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

class Facts : Prop extends Facts₀ where

variable [Facts]
-- ==== Proof.Results.lean ====
/-
  The whole program's run with its two results named.

  The program is five kernels in a row after five format changes on the host. Its memory at each boundary is a fold
  from the launch memory: after the host operations, then after each kernel, whose output arrays hold what its grid
  points wrote back and whose other buffers are as the kernel found them. Every weakly fair execution ends with every
  buffer at the last boundary's contents; in particular the reconstruction `main_v9` and the code `main_v7_0` end at
  those contents, and the six arguments end as launched.
-/
import proofs.«169077_g22617297780800_cont_8to1_845_3_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the two result buffers end at the last boundary's
    contents and the arguments as launched. -/
theorem run : θ_run defs (onTc (τ := τ) (main (F := F))) ⟨m, fun _ => 0, ρ⟩ (fun r => ∀ c : Dev nD,
      r.2.mem ((c.tc : Thread nD τ).loc main_v9) = W6 m ρ c (Proc.devRef .tc main_v9)
      ∧ r.2.mem ((c.tc : Thread nD τ).loc main_v7_0) = W6 m ρ c (Proc.devRef .tc main_v7_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v9 (by decide)),
       h c _ (mem_uc main_v7_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Results

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Spec.lean ====
/-
  The graph-convolution autoencoder as one function of its six arguments, on the extended reals.

  A layer is `act (adj · (h · W))`: the features `h` are multiplied by the layer's weights, the result is
  propagated along the graph by the dense adjacency `adj`, and an activation is applied. The encoder is a layer with
  the rectifier followed by a layer with the identity; the decoder is the same pair applied to the code. Every product
  is the plain rows-by-columns sum `∑ k, l[a,k] · r[k,b]`, and the rectifier is the maximum with the value of the
  all-zero word. Nothing here depends on how the products are tiled or in which float format an intermediate array is
  kept: on the extended reals a change of format is the identity.
-/
import Idealize.ShloMosaic.PureOps.Ideal
import proofs.«169077_g22617297780800_cont_8to1_845_3_alg».proof.Proof.LibPlainDot

noncomputable section

namespace Cert.GcnAe

open Idealize.ShloMosaic Cert.Lib.PlainDot

/-- An `A×B` array of extended reals, indexed by its two coordinates. -/
abbrev Mat (A B : ℕ) : Type := (⟨2, ![A, B]⟩ : Shape).Idx → EReal

/-- The rectifier, entry by entry: the maximum with the value of the zero word. -/
def relu {A B : ℕ} (x : Mat A B) : Mat A B := fun j => max (x j) (Ideal.ofBits .f32 0x00000000#32)

/-- The rectifier reads one entry: it agrees at two indices where its arguments do. -/
theorem relu_congr {A B A' B' : ℕ} (x : Mat A B) (x' : Mat A' B') (i : (⟨2, ![A, B]⟩ : Shape).Idx)
    (i' : (⟨2, ![A', B']⟩ : Shape).Idx) (h : x' i' = x i) : relu x' i' = relu x i := by
  unfold relu; rw [h]

/-- The rectifier as a kernel body spells it: the entrywise maximum with a splat of the zero word. -/
theorem maximumf_splat_zero {A B : ℕ} (x : FVec Ideal ⟨2, ![A, B]⟩ .f32) :
    maximumf x (broadcast ⟨2, ![A, B]⟩ (Scalar.ofBits (F := Ideal) .f32 0x00000000#32)) = relu (x : Mat A B) := rfl

/-- One propagation: `adj · (h · W)`. -/
def conv {A C C' : ℕ} (adj : Mat A A) (h : Mat A C) (W : Mat C C') : Mat A C' := rowsByCols adj (rowsByCols h W)

/-- The code: `adj · (relu (adj · (x · W1)) · W2)`. -/
def encoded (x : Mat 10000 256) (adj : Mat 10000 10000) (W1 : Mat 256 256) (W2 : Mat 256 128) : Mat 10000 128 :=
  conv adj (relu (conv adj x W1)) W2

/-- The reconstruction: `adj · (relu (adj · (code · W3)) · W4)`. -/
def decoded (x : Mat 10000 256) (adj : Mat 10000 10000) (W1 : Mat 256 256) (W2 : Mat 256 128) (W3 : Mat 128 256)
    (W4 : Mat 256 256) : Mat 10000 256 :=
  conv adj (relu (conv adj (encoded x adj W1 W2) W3)) W4

end Cert.GcnAe

end
-- ==== Proof.Region0.lean ====
/-
  The first kernel: the encoder's first support `x · W`, computed at once.

  There is no grid: the one point loads the whole feature matrix and the whole weight matrix, multiplies them into a
  zero accumulator and stores the result, narrowed to the 16-bit format, as the whole output. On the extended reals the
  narrowing is the identity, and the one block is the whole array.
-/
import proofs.«169077_g22617297780800_cont_8to1_845_3_alg».proof.Proof.Gen.KernelIdeal.Frame
import proofs.«169077_g22617297780800_cont_8to1_845_3_alg».proof.Proof.Spec
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx Cert.Lib.PlainDot Cert.GcnAe

variable (V : (c : Dev nD) → (b : Ref sig .tc) → Buf (Elt Ideal) ((c : Thread nD τ).loc b))

theorem zeros : (![0, 0] : Fin 2 → Nat) = fun _ => 0 := funext fun a => by fin_cases a <;> rfl

/-- The stored value is the product of the two loaded arrays. -/
theorem pay_eq (x0 : Vec Ideal S10000x256 .bf16) (x1 : Vec Ideal S256x256 .bf16) :
    k0_pay1 x0 x1 = rowsByCols (x0 : Mat 10000 256) (x1 : Mat 256 256) := by
  unfold k0_pay1
  simp only [shapeCast_self]
  show FloatOps.matmul (φ₁ := .bf16) (φ₂ := .bf16) dot_S10000x256_S256x256_S10000x256_1_0_0_1_n_n none x0 x1
      (constant (F := Ideal) S10000x256 .f32 0x00000000#32) = _
  exact matmul_zero_eq (φ₁ := .bf16) (φ₂ := .bf16) dot_S10000x256_S256x256_S10000x256_1_0_0_1_n_n rfl none x0 x1

/-- The printed index maps at the one point: every window is its whole array. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- What the point writes back is the whole product, read through the whole-array block. -/
theorem flushed_eq (c : Dev nD) (t : Fin cfg0.N) :
    (dat0 V c).flushed 2 t = ((cfg0.win 2).blk t).view.read (Elt Ideal)
      (rowsByCols (V c main_v4 : Mat 10000 256) (V c main_v0 : Mat 256 256)) := by
  show (cfg0.win 2).cut (grid0.coords t) ((dat0 V c).after 2 t) = _
  rw [after0_2]
  unfold out0_2
  rw [View.canon_unit_zero zeros]
  simp only [View.ld_unit_zero (S := S10000x256) zeros, View.ld_unit_zero (S := S256x256) zeros]
  rw [pay_eq]
  obtain ⟨e0, e1, e2, e3, e4, e5⟩ := idx_facts t
  funext j
  show rowsByCols (iblk0 V c 0 t) (iblk0 V c 1 t) j
    = rowsByCols (V c main_v4 : Mat 10000 256) (V c main_v0 : Mat 256 256) (((cfg0.win 2).blk t).view.emb j)
  refine rowsByCols_congr _ _ _ _ j _ (fun k => ?_) (fun k => ?_)
  · show V c main_v4 (((cfg0.win 0).blk t).view.emb (ix2 (j 0) k)) = V c main_v4 (ix2 ((((cfg0.win 2).blk t).view.emb j) 0) k)
    refine congrArg (V c main_v4) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * k.val = k.val; omega
  · show V c main_v0 (((cfg0.win 1).blk t).view.emb (ix2 k (j 1))) = V c main_v0 (ix2 k ((((cfg0.win 2).blk t).view.emb j) 1))
    refine congrArg (V c main_v0) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An index of the output is in the point's block iff each coordinate is in the block's range on its axis. -/
theorem mem_blk (t : Fin cfg0.N) (i : S10000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v5).slice (win0_2.rect t)).set ↔ _
  rw [View.set_slice_whole, Rect.mem_set_unit]
  exact Iff.rfl

/-- The one block is the whole array. -/
theorem cover (i : S10000x256.Idx) : ∃ t : Fin cfg0.N, (cfg0.win 2).flush t = true ∧ i ∈ ((cfg0.win 2).blk t).view.set := by
  have hi0 : (i 0).val < 10000 := (i 0).isLt
  have hi1 : (i 1).val < 256 := (i 1).isLt
  obtain ⟨e0, e1, e2, e3, e4, e5⟩ := idx_facts t0_0
  refine ⟨t0_0, flush0_2 t0_0, ?_⟩
  rw [mem_blk]
  intro a
  match a with
  | ⟨0, _⟩ => show win0_2.index t0_0 (0 : Fin 2) * 10000 ≤ (i 0).val ∧ (i 0).val < win0_2.index t0_0 (0 : Fin 2) * 10000 + 10000; omega
  | ⟨1, _⟩ => show win0_2.index t0_0 (1 : Fin 2) * 256 ≤ (i 1).val ∧ (i 1).val < win0_2.index t0_0 (1 : Fin 2) * 256 + 256; omega

/-- The output array after the region: `x · W` of the two arrays as the region found them. -/
theorem final (c : Dev nD) :
    (dat0 V c).arrAt 2 cfg0.N = rowsByCols (V c main_v4 : Mat 10000 256) (V c main_v0 : Mat 256 256) :=
  (dat0 V c).arrAt_eq_of_cover 2 _ (fun t _ => flushed_eq V c t) cover

end Cert.KernelIdeal.Region0

end
-- ==== Proof.Region1.lean ====
/-
  The encoder's hidden layer and the next support in one kernel, with a copy of the adjacency in the 16-bit format:
  `relu (adj · s) · W`, 400 rows at a time.

  At grid point `t` the body loads rows `400·t … 400·t + 399` of the adjacency, the whole support `s` and the whole
  weight matrix `W`. It stores the loaded rows, narrowed to the 16-bit format, as the same rows of the copy; on the
  extended reals the narrowing is the identity, so the copy ends equal to the adjacency. And it stores the rows times
  `s`, rectified, times `W` as a block of the next support, which depends on the same rows of `adj` only.
-/
import proofs.«169077_g22617297780800_cont_8to1_845_3_alg».proof.Proof.Gen.KernelIdeal.Frame
import proofs.«169077_g22617297780800_cont_8to1_845_3_alg».proof.Proof.Spec
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx Cert.Lib.PlainDot Cert.GcnAe

variable (V : (c : Dev nD) → (b : Ref sig .tc) → Buf (Elt Ideal) ((c : Thread nD τ).loc b))

theorem zeros : (![0, 0] : Fin 2 → Nat) = fun _ => 0 := funext fun a => by fin_cases a <;> rfl

/-- The first stored value is the loaded block itself: a change of float format is the identity on the extended reals. -/
theorem pay1_eq (x0 : Vec Ideal S400x10000 .f32) : k1_pay1 x0 = (x0 : Mat 400 10000) := rfl

/-- The second stored value: the loaded rows times the support, rectified, times the weights. -/
theorem pay2_eq (x0 : Vec Ideal S400x10000 .f32) (x1 : Vec Ideal S10000x256 .bf16) (x2 : Vec Ideal S256x128 .bf16) :
    k1_pay2 x0 x1 x2 = rowsByCols (relu (rowsByCols (x0 : Mat 400 10000) (x1 : Mat 10000 256))) (x2 : Mat 256 128) := by
  unfold k1_pay2 k1_pay1
  simp only [shapeCast_self]
  show FloatOps.matmul (φ₁ := .f32) (φ₂ := .bf16) dot_S400x256_S256x128_S400x128_1_0_0_1_n_n none
      (maximumf (FloatOps.matmul (φ₁ := .f32) (φ₂ := .bf16) dot_S400x10000_S10000x256_S400x256_1_0_0_1_n_n none x0 x1 (constant (F := Ideal) S400x256 .f32 0x00000000#32))
        (broadcast S400x256 (Scalar.ofBits (F := Ideal) .f32 0x00000000#32)))
      x2 (constant (F := Ideal) S400x128 .f32 0x00000000#32) = _
  rw [matmul_zero_eq (φ₁ := .f32) (φ₂ := .bf16) dot_S400x10000_S10000x256_S400x256_1_0_0_1_n_n rfl none x0 x1, maximumf_splat_zero,
    matmul_zero_eq (φ₁ := .f32) (φ₂ := .bf16) dot_S400x256_S256x128_S400x128_1_0_0_1_n_n rfl none _ x2]

/-- The printed index maps over the grid: the adjacency's block and both outputs' blocks are block row `t`, the
    support and the weights are fetched whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point `t` writes back to the copy is block `t` of the adjacency. -/
theorem flushed3_eq (c : Dev nD) (t : Fin cfg1.N) :
    (dat1 V c).flushed 3 t = ((cfg1.win 3).blk t).view.read (Elt Ideal) (V c main_arg1 : Mat 10000 10000) := by
  show (cfg1.win 3).cut (grid1.coords t) ((dat1 V c).after 3 t) = _
  rw [after1_3]
  unfold out1_3
  rw [View.canon_unit_zero zeros]
  simp only [View.ld_unit_zero (S := S400x10000) zeros]
  rw [pay1_eq]
  obtain ⟨e0, e1, e2, e3, e4, e5, e6, e7, e8, e9⟩ := idx_facts t
  funext j
  show V c main_arg1 (((cfg1.win 0).blk t).view.emb j) = V c main_arg1 (((cfg1.win 3).blk t).view.emb j)
  refine congrArg (V c main_arg1) (funext fun a => Fin.ext ?_)
  match a with
  | ⟨0, _⟩ => show win1_0.index t (0 : Fin 2) * 400 + 1 * (j 0).val = win1_3.index t (0 : Fin 2) * 400 + 1 * (j 0).val; omega
  | ⟨1, _⟩ => show win1_0.index t (1 : Fin 2) * 10000 + 1 * (j 1).val = win1_3.index t (1 : Fin 2) * 10000 + 1 * (j 1).val; omega

/-- What point `t` writes back to the next support is block `t` of the whole-array expression. -/
theorem flushed4_eq (c : Dev nD) (t : Fin cfg1.N) :
    (dat1 V c).flushed 4 t = ((cfg1.win 4).blk t).view.read (Elt Ideal)
      (rowsByCols (relu (rowsByCols (V c main_arg1 : Mat 10000 10000) (V c main_v5 : Mat 10000 256))) (V c main_v1 : Mat 256 128)) := by
  show (cfg1.win 4).cut (grid1.coords t) ((dat1 V c).after 4 t) = _
  rw [after1_4]
  unfold out1_4
  rw [View.canon_unit_zero zeros]
  simp only [View.ld_unit_zero (S := S400x10000) zeros, View.ld_unit_zero (S := S10000x256) zeros, View.ld_unit_zero (S := S256x128) zeros]
  rw [pay2_eq]
  obtain ⟨e0, e1, e2, e3, e4, e5, e6, e7, e8, e9⟩ := idx_facts t
  funext j
  show rowsByCols (relu (rowsByCols (iblk1 V c 0 t) (iblk1 V c 1 t))) (iblk1 V c 2 t) j
    = rowsByCols (relu (rowsByCols (V c main_arg1 : Mat 10000 10000) (V c main_v5 : Mat 10000 256))) (V c main_v1 : Mat 256 128)
        (((cfg1.win 4).blk t).view.emb j)
  refine rowsByCols_congr _ _ _ _ j _ (fun k => ?_) (fun k => ?_)
  · refine relu_congr _ _ _ _ ?_
    refine rowsByCols_congr _ _ _ _ _ _ (fun k' => ?_) (fun k' => ?_)
    · show V c main_arg1 (((cfg1.win 0).blk t).view.emb (ix2 (j 0) k')) = V c main_arg1 (ix2 ((((cfg1.win 4).blk t).view.emb j) 0) k')
      refine congrArg (V c main_arg1) (funext fun a => Fin.ext ?_)
      match a with
      | ⟨0, _⟩ => show win1_0.index t (0 : Fin 2) * 400 + 1 * (j 0).val = win1_4.index t (0 : Fin 2) * 400 + 1 * (j 0).val; omega
      | ⟨1, _⟩ => show win1_0.index t (1 : Fin 2) * 10000 + 1 * k'.val = k'.val; omega
    · show V c main_v5 (((cfg1.win 1).blk t).view.emb (ix2 k' k)) = V c main_v5 (ix2 k' k)
      refine congrArg (V c main_v5) (funext fun a => Fin.ext ?_)
      match a with
      | ⟨0, _⟩ => show win1_1.index t (0 : Fin 2) * 10000 + 1 * k'.val = k'.val; omega
      | ⟨1, _⟩ => show win1_1.index t (1 : Fin 2) * 256 + 1 * k.val = k.val; omega
  · show V c main_v1 (((cfg1.win 2).blk t).view.emb (ix2 k (j 1))) = V c main_v1 (ix2 k ((((cfg1.win 4).blk t).view.emb j) 1))
    refine congrArg (V c main_v1) (funext fun a => Fin.ext ?_)
    match a with
    | ⟨0, _⟩ => show win1_2.index t (0 : Fin 2) * 256 + 1 * k.val = k.val; omega
    | ⟨1, _⟩ => show win1_2.index t (1 : Fin 2) * 128 + 1 * (j 1).val = win1_4.index t (1 : Fin 2) * 128 + 1 * (j 1).val; omega

/-- An index of the output is in point `t`'s block iff each coordinate is in the block's range on its axis. -/
theorem mem_blk3 (t : Fin cfg1.N) (i : S10000x10000.Idx) :
    i ∈ ((cfg1.win 3).blk t).view.set ↔ ∀ a : Fin 2, win1_3.index t a * S400x10000.size a ≤ (i a).val ∧ (i a).val < win1_3.index t a * S400x10000.size a + S400x10000.size a := by
  show i ∈ ((View.whole main_v6_0).slice (win1_3.rect t)).set ↔ _
  rw [View.set_slice_whole, Rect.mem_set_unit]
  exact Iff.rfl

/-- Row `r` of the output is in the block of point `r / 400`: the blocks of 400 rows tile the 10000 rows. -/
theorem cover3 (i : S10000x10000.Idx) : ∃ t : Fin cfg1.N, (cfg1.win 3).flush t = true ∧ i ∈ ((cfg1.win 3).blk t).view.set := by
  have hi0 : (i 0).val < 10000 := (i 0).isLt
  have hi1 : (i 1).val < 10000 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨e0, e1, e2, e3, e4, e5, e6, e7, e8, e9⟩ := idx_facts t
  refine ⟨t, flush1_3 t, ?_⟩
  rw [mem_blk3]
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 10000 ≤ (i 1).val ∧ (i 1).val < win1_3.index t (1 : Fin 2) * 10000 + 10000; omega

/-- An index of the output is in point `t`'s block iff each coordinate is in the block's range on its axis. -/
theorem mem_blk4 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v6_1).slice (win1_4.rect t)).set ↔ _
  rw [View.set_slice_whole, Rect.mem_set_unit]
  exact Iff.rfl

/-- Row `r` of the output is in the block of point `r / 400`: the blocks of 400 rows tile the 10000 rows. -/
theorem cover4 (i : S10000x128.Idx) : ∃ t : Fin cfg1.N, (cfg1.win 4).flush t = true ∧ i ∈ ((cfg1.win 4).blk t).view.set := by
  have hi0 : (i 0).val < 10000 := (i 0).isLt
  have hi1 : (i 1).val < 128 := (i 1).isLt
  have hN : cfg1.N = 25 := N_1
  obtain ⟨t, ht⟩ : ∃ t : Fin cfg1.N, t.val = (i 0).val / 400 := ⟨⟨(i 0).val / 400, by rw [hN]; omega⟩, rfl⟩
  obtain ⟨e0, e1, e2, e3, e4, e5, e6, e7, e8, e9⟩ := idx_facts t
  refine ⟨t, flush1_4 t, ?_⟩
  rw [mem_blk4]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 128 ≤ (i 1).val ∧ (i 1).val < win1_4.index t (1 : Fin 2) * 128 + 128; omega

/-- The copy after the region: the adjacency as the region found it. -/
theorem final3 (c : Dev nD) : (dat1 V c).arrAt 3 cfg1.N = (V c main_arg1 : Mat 10000 10000) :=
  (dat1 V c).arrAt_eq_of_cover 3 _ (fun t _ => flushed3_eq V c t) cover3

/-- The next support after the region: `relu (adj · s) · W` of the arrays as the region found them. -/
theorem final4 (c : Dev nD) :
    (dat1 V c).arrAt 4 cfg1.N
      = rowsByCols (relu (rowsByCols (V c main_arg1 : Mat 10000 10000) (V c main_v5 : Mat 10000 256))) (V c main_v1 : Mat 256 128) :=
  (dat1 V c).arrAt_eq_of_cover 4 _ (fun t _ => flushed4_eq V c t) cover4

end Cert.KernelIdeal.Region1

end
-- ==== Proof.Region2.lean ====
/-
  The code and the decoder's first support in one kernel: `adj · s` and `(adj · s) · W`, 400 rows at a time.

  At grid point `t` the body loads rows `400·t … 400·t + 399` of the adjacency, the whole support `s` and the whole
  weight matrix `W`. It stores the product of the rows by `s` as a block of the code, and the product of that block by
  `W` as a block of the next support. Both blocks depend on the same rows of `adj` only, so each is the block of rows
  of its whole-array expression, and the 25 blocks of each output tile it.
-/
import proofs.«169077_g22617297780800_cont_8to1_845_3_alg».proof.Proof.Gen.KernelIdeal.Frame
import proofs.«169077_g22617297780800_cont_8to1_845_3_alg».proof.Proof.Spec
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.Lib.PlainDot Cert.GcnAe

variable (V : (c : Dev nD) → (b : Ref sig .tc) → Buf (Elt Ideal) ((c : Thread nD τ).loc b))

theorem zeros : (![0, 0] : Fin 2 → Nat) = fun _ => 0 := funext fun a => by fin_cases a <;> rfl

/-- The first stored value: the loaded rows times the support. -/
theorem pay1_eq (x0 : Vec Ideal S400x10000 .bf16) (x1 : Vec Ideal S10000x128 .bf16) :
    k2_pay1 x0 x1 = rowsByCols (x0 : Mat 400 10000) (x1 : Mat 10000 128) := by
  unfold k2_pay1
  simp only [shapeCast_self]
  exact matmul_zero_eq _ rfl none _ _

/-- The second stored value: the first one times the weights (the narrowings to the 16-bit format are the identity on
    the extended reals). -/
theorem pay2_eq (x0 : Vec Ideal S400x10000 .bf16) (x1 : Vec Ideal S10000x128 .bf16) (x2 : Vec Ideal S128x256 .bf16) :
    k2_pay2 x0 x1 x2 = rowsByCols (rowsByCols (x0 : Mat 400 10000) (x1 : Mat 10000 128)) (x2 : Mat 128 256) := by
  unfold k2_pay2
  rw [pay1_eq]
  simp only [shapeCast_self]
  show FloatOps.matmul (φ₁ := .f32) (φ₂ := .bf16) dot_S400x128_S128x256_S400x256_1_0_0_1_n_n none
      (rowsByCols (x0 : Mat 400 10000) (x1 : Mat 10000 128)) x2 (constant (F := Ideal) S400x256 .f32 0x00000000#32) = _
  exact matmul_zero_eq (φ₁ := .f32) (φ₂ := .bf16) dot_S400x128_S128x256_S400x256_1_0_0_1_n_n rfl none _ x2

/-- The printed index maps over the grid: the adjacency's block and both outputs' blocks are block row `t`, the
    support and the weights are fetched whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point `t` writes back to the code is block `t` of `adj · s`. -/
theorem flushed3_eq (c : Dev nD) (t : Fin cfg2.N) :
    (dat2 V c).flushed 3 t = ((cfg2.win 3).blk t).view.read (Elt Ideal)
      (rowsByCols (V c main_v6_0 : Mat 10000 10000) (V c main_v6_1 : Mat 10000 128)) := by
  show (cfg2.win 3).cut (grid2.coords t) ((dat2 V c).after 3 t) = _
  rw [after2_3]
  unfold out2_3
  rw [View.canon_unit_zero zeros]
  simp only [View.ld_unit_zero (S := S400x10000) zeros, View.ld_unit_zero (S := S10000x128) zeros]
  rw [pay1_eq]
  obtain ⟨e0, e1, e2, e3, e4, e5, e6, e7, e8, e9⟩ := idx_facts t
  funext j
  show rowsByCols (iblk2 V c 0 t) (iblk2 V c 1 t) j
    = rowsByCols (V c main_v6_0 : Mat 10000 10000) (V c main_v6_1 : Mat 10000 128) (((cfg2.win 3).blk t).view.emb j)
  refine rowsByCols_congr _ _ _ _ j _ (fun k => ?_) (fun k => ?_)
  · show V c main_v6_0 (((cfg2.win 0).blk t).view.emb (ix2 (j 0) k)) = V c main_v6_0 (ix2 ((((cfg2.win 3).blk t).view.emb j) 0) k)
    refine congrArg (V c main_v6_0) (funext fun a => Fin.ext ?_)
    match a with
    | ⟨0, _⟩ => show win2_0.index t (0 : Fin 2) * 400 + 1 * (j 0).val = win2_3.index t (0 : Fin 2) * 400 + 1 * (j 0).val; omega
    | ⟨1, _⟩ => show win2_0.index t (1 : Fin 2) * 10000 + 1 * k.val = k.val; omega
  · show V c main_v6_1 (((cfg2.win 1).blk t).view.emb (ix2 k (j 1))) = V c main_v6_1 (ix2 k ((((cfg2.win 3).blk t).view.emb j) 1))
    refine congrArg (V c main_v6_1) (funext fun a => Fin.ext ?_)
    match a with
    | ⟨0, _⟩ => show win2_1.index t (0 : Fin 2) * 10000 + 1 * k.val = k.val; omega
    | ⟨1, _⟩ => show win2_1.index t (1 : Fin 2) * 128 + 1 * (j 1).val = win2_3.index t (1 : Fin 2) * 128 + 1 * (j 1).val; omega

/-- What point `t` writes back to the next support is block `t` of `(adj · s) · W`. -/
theorem flushed4_eq (c : Dev nD) (t : Fin cfg2.N) :
    (dat2 V c).flushed 4 t = ((cfg2.win 4).blk t).view.read (Elt Ideal)
      (rowsByCols (rowsByCols (V c main_v6_0 : Mat 10000 10000) (V c main_v6_1 : Mat 10000 128)) (V c main_v2 : Mat 128 256)) := by
  show (cfg2.win 4).cut (grid2.coords t) ((dat2 V c).after 4 t) = _
  rw [after2_4]
  unfold out2_4
  rw [View.canon_unit_zero zeros]
  simp only [View.ld_unit_zero (S := S400x10000) zeros, View.ld_unit_zero (S := S10000x128) zeros, View.ld_unit_zero (S := S128x256) zeros]
  rw [pay2_eq]
  obtain ⟨e0, e1, e2, e3, e4, e5, e6, e7, e8, e9⟩ := idx_facts t
  funext j
  show rowsByCols (rowsByCols (iblk2 V c 0 t) (iblk2 V c 1 t)) (iblk2 V c 2 t) j
    = rowsByCols (rowsByCols (V c main_v6_0 : Mat 10000 10000) (V c main_v6_1 : Mat 10000 128)) (V c main_v2 : Mat 128 256)
        (((cfg2.win 4).blk t).view.emb j)
  refine rowsByCols_congr _ _ _ _ j _ (fun k => ?_) (fun k => ?_)
  · refine rowsByCols_congr _ _ _ _ _ _ (fun k' => ?_) (fun k' => ?_)
    · show V c main_v6_0 (((cfg2.win 0).blk t).view.emb (ix2 (j 0) k')) = V c main_v6_0 (ix2 ((((cfg2.win 4).blk t).view.emb j) 0) k')
      refine congrArg (V c main_v6_0) (funext fun a => Fin.ext ?_)
      match a with
      | ⟨0, _⟩ => show win2_0.index t (0 : Fin 2) * 400 + 1 * (j 0).val = win2_4.index t (0 : Fin 2) * 400 + 1 * (j 0).val; omega
      | ⟨1, _⟩ => show win2_0.index t (1 : Fin 2) * 10000 + 1 * k'.val = k'.val; omega
    · show V c main_v6_1 (((cfg2.win 1).blk t).view.emb (ix2 k' k)) = V c main_v6_1 (ix2 k' k)
      refine congrArg (V c main_v6_1) (funext fun a => Fin.ext ?_)
      match a with
      | ⟨0, _⟩ => show win2_1.index t (0 : Fin 2) * 10000 + 1 * k'.val = k'.val; omega
      | ⟨1, _⟩ => show win2_1.index t (1 : Fin 2) * 128 + 1 * k.val = k.val; omega
  · show V c main_v2 (((cfg2.win 2).blk t).view.emb (ix2 k (j 1))) = V c main_v2 (ix2 k ((((cfg2.win 4).blk t).view.emb j) 1))
    refine congrArg (V c main_v2) (funext fun a => Fin.ext ?_)
    match a with
    | ⟨0, _⟩ => show win2_2.index t (0 : Fin 2) * 128 + 1 * k.val = k.val; omega
    | ⟨1, _⟩ => show win2_2.index t (1 : Fin 2) * 256 + 1 * (j 1).val = win2_4.index t (1 : Fin 2) * 256 + 1 * (j 1).val; omega

/-- An index of the output is in point `t`'s block iff each coordinate is in the block's range on its axis. -/
theorem mem_blk3 (t : Fin cfg2.N) (i : S10000x128.Idx) :
    i ∈ ((cfg2.win 3).blk t).view.set ↔ ∀ a : Fin 2, win2_3.index t a * S400x128.size a ≤ (i a).val ∧ (i a).val < win2_3.index t a * S400x128.size a + S400x128.size a := by
  show i ∈ ((View.whole main_v7_0).slice (win2_3.rect t)).set ↔ _
  rw [View.set_slice_whole, Rect.mem_set_unit]
  exact Iff.rfl

/-- Row `r` of the output is in the block of point `r / 400`: the blocks of 400 rows tile the 10000 rows. -/
theorem cover3 (i : S10000x128.Idx) : ∃ t : Fin cfg2.N, (cfg2.win 3).flush t = true ∧ i ∈ ((cfg2.win 3).blk t).view.set := by
  have hi0 : (i 0).val < 10000 := (i 0).isLt
  have hi1 : (i 1).val < 128 := (i 1).isLt
  have hN : cfg2.N = 25 := N_2
  obtain ⟨t, ht⟩ : ∃ t : Fin cfg2.N, t.val = (i 0).val / 400 := ⟨⟨(i 0).val / 400, by rw [hN]; omega⟩, rfl⟩
  obtain ⟨e0, e1, e2, e3, e4, e5, e6, e7, e8, e9⟩ := idx_facts t
  refine ⟨t, flush2_3 t, ?_⟩
  rw [mem_blk3]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 128 ≤ (i 1).val ∧ (i 1).val < win2_3.index t (1 : Fin 2) * 128 + 128; omega

/-- An index of the output is in point `t`'s block iff each coordinate is in the block's range on its axis. -/
theorem mem_blk4 (t : Fin cfg2.N) (i : S10000x256.Idx) :
    i ∈ ((cfg2.win 4).blk t).view.set ↔ ∀ a : Fin 2, win2_4.index t a * S400x256.size a ≤ (i a).val ∧ (i a).val < win2_4.index t a * S400x256.size a + S400x256.size a := by
  show i ∈ ((View.whole main_v7_1).slice (win2_4.rect t)).set ↔ _
  rw [View.set_slice_whole, Rect.mem_set_unit]
  exact Iff.rfl

/-- Row `r` of the output is in the block of point `r / 400`: the blocks of 400 rows tile the 10000 rows. -/
theorem cover4 (i : S10000x256.Idx) : ∃ t : Fin cfg2.N, (cfg2.win 4).flush t = true ∧ i ∈ ((cfg2.win 4).blk t).view.set := by
  have hi0 : (i 0).val < 10000 := (i 0).isLt
  have hi1 : (i 1).val < 256 := (i 1).isLt
  have hN : cfg2.N = 25 := N_2
  obtain ⟨t, ht⟩ : ∃ t : Fin cfg2.N, t.val = (i 0).val / 400 := ⟨⟨(i 0).val / 400, by rw [hN]; omega⟩, rfl⟩
  obtain ⟨e0, e1, e2, e3, e4, e5, e6, e7, e8, e9⟩ := idx_facts t
  refine ⟨t, flush2_4 t, ?_⟩
  rw [mem_blk4]
  intro a
  match a with
  | ⟨0, _⟩ => show win2_4.index t (0 : Fin 2) * 400 ≤ (i 0).val ∧ (i 0).val < win2_4.index t (0 : Fin 2) * 400 + 400; omega
  | ⟨1, _⟩ => show win2_4.index t (1 : Fin 2) * 256 ≤ (i 1).val ∧ (i 1).val < win2_4.index t (1 : Fin 2) * 256 + 256; omega

/-- The code after the region: `adj · s` of the arrays as the region found them. -/
theorem final3 (c : Dev nD) :
    (dat2 V c).arrAt 3 cfg2.N = rowsByCols (V c main_v6_0 : Mat 10000 10000) (V c main_v6_1 : Mat 10000 128) :=
  (dat2 V c).arrAt_eq_of_cover 3 _ (fun t _ => flushed3_eq V c t) cover3

/-- The next support after the region: `(adj · s) · W` of the arrays as the region found them. -/
theorem final4 (c : Dev nD) :
    (dat2 V c).arrAt 4 cfg2.N
      = rowsByCols (rowsByCols (V c main_v6_0 : Mat 10000 10000) (V c main_v6_1 : Mat 10000 128)) (V c main_v2 : Mat 128 256) :=
  (dat2 V c).arrAt_eq_of_cover 4 _ (fun t _ => flushed4_eq V c t) cover4

end Cert.KernelIdeal.Region2

end
-- ==== Proof.Region3.lean ====
/-
  The decoder's hidden layer and the next support in one kernel: `relu (adj · s) · W`, 400 rows at a time.

  At grid point `t` the body loads rows `400·t … 400·t + 399` of the adjacency, the whole support `s` and the whole
  weight matrix `W`; it multiplies the rows by `s`, takes the maximum with zero entry by entry, multiplies the result
  by `W` and stores the 400×256 block. Each row of `relu (adj · s) · W` depends on the same row of `adj` only, so the
  block is the corresponding block of rows of the whole-array expression, and the 25 blocks tile the output.
-/
import proofs.«169077_g22617297780800_cont_8to1_845_3_alg».proof.Proof.Gen.KernelIdeal.Frame
import proofs.«169077_g22617297780800_cont_8to1_845_3_alg».proof.Proof.Spec
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)
open Idealize.ShloMosaic.ValueIdx Cert.Lib.PlainDot Cert.GcnAe

variable (V : (c : Dev nD) → (b : Ref sig .tc) → Buf (Elt Ideal) ((c : Thread nD τ).loc b))

theorem zeros : (![0, 0] : Fin 2 → Nat) = fun _ => 0 := funext fun a => by fin_cases a <;> rfl

/-- The body's stored value: the loaded rows times the support, rectified, times the weights. The two narrowings to
    the 16-bit format are the identity on the extended reals. -/
theorem pay_eq (x0 : Vec Ideal S400x10000 .bf16) (x1 : Vec Ideal S10000x256 .bf16) (x2 : Vec Ideal S256x256 .bf16) :
    k3_pay1 x0 x1 x2 = rowsByCols (relu (rowsByCols (x0 : Mat 400 10000) (x1 : Mat 10000 256))) (x2 : Mat 256 256) := by
  unfold k3_pay1
  simp only [shapeCast_self]
  show FloatOps.matmul (φ₁ := .f32) (φ₂ := .bf16) dot_S400x256_S256x256_S400x256_1_0_0_1_n_n none
      (maximumf (FloatOps.matmul (φ₁ := .bf16) (φ₂ := .bf16) dot_S400x10000_S10000x256_S400x256_1_0_0_1_n_n none x0 x1 (constant (F := Ideal) S400x256 .f32 0x00000000#32))
        (broadcast S400x256 (Scalar.ofBits (F := Ideal) .f32 0x00000000#32)))
      x2 (constant (F := Ideal) S400x256 .f32 0x00000000#32) = _
  rw [matmul_zero_eq (φ₁ := .bf16) (φ₂ := .bf16) dot_S400x10000_S10000x256_S400x256_1_0_0_1_n_n rfl none x0 x1, maximumf_splat_zero,
    matmul_zero_eq (φ₁ := .f32) (φ₂ := .bf16) dot_S400x256_S256x256_S400x256_1_0_0_1_n_n rfl none _ x2]

/-- The printed index maps over the grid: the adjacency's block and the output's block are both block row `t`, the
    support and the weights are fetched whole. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of the whole-array expression. -/
theorem flushed_eq (c : Dev nD) (t : Fin cfg3.N) :
    (dat3 V c).flushed 3 t = ((cfg3.win 3).blk t).view.read (Elt Ideal)
      (rowsByCols (relu (rowsByCols (V c main_v6_0 : Mat 10000 10000) (V c main_v7_1 : Mat 10000 256))) (V c main_v3 : Mat 256 256)) := by
  show (cfg3.win 3).cut (grid3.coords t) ((dat3 V c).after 3 t) = _
  rw [after3_3]
  unfold out3_3
  rw [View.canon_unit_zero zeros]
  simp only [View.ld_unit_zero (S := S400x10000) zeros, View.ld_unit_zero (S := S10000x256) zeros, View.ld_unit_zero (S := S256x256) zeros]
  rw [pay_eq]
  obtain ⟨e0, e1, e2, e3, e4, e5, e6, e7⟩ := idx_facts t
  funext j
  show rowsByCols (relu (rowsByCols (iblk3 V c 0 t) (iblk3 V c 1 t))) (iblk3 V c 2 t) j
    = rowsByCols (relu (rowsByCols (V c main_v6_0 : Mat 10000 10000) (V c main_v7_1 : Mat 10000 256))) (V c main_v3 : Mat 256 256)
        (((cfg3.win 3).blk t).view.emb j)
  refine rowsByCols_congr _ _ _ _ j _ (fun k => ?_) (fun k => ?_)
  · refine relu_congr _ _ _ _ ?_
    refine rowsByCols_congr _ _ _ _ _ _ (fun k' => ?_) (fun k' => ?_)
    · show V c main_v6_0 (((cfg3.win 0).blk t).view.emb (ix2 (j 0) k')) = V c main_v6_0 (ix2 ((((cfg3.win 3).blk t).view.emb j) 0) k')
      refine congrArg (V c main_v6_0) (funext fun a => Fin.ext ?_)
      match a with
      | ⟨0, _⟩ => show win3_0.index t (0 : Fin 2) * 400 + 1 * (j 0).val = win3_3.index t (0 : Fin 2) * 400 + 1 * (j 0).val; omega
      | ⟨1, _⟩ => show win3_0.index t (1 : Fin 2) * 10000 + 1 * k'.val = k'.val; omega
    · show V c main_v7_1 (((cfg3.win 1).blk t).view.emb (ix2 k' k)) = V c main_v7_1 (ix2 k' k)
      refine congrArg (V c main_v7_1) (funext fun a => Fin.ext ?_)
      match a with
      | ⟨0, _⟩ => show win3_1.index t (0 : Fin 2) * 10000 + 1 * k'.val = k'.val; omega
      | ⟨1, _⟩ => show win3_1.index t (1 : Fin 2) * 256 + 1 * k.val = k.val; omega
  · show V c main_v3 (((cfg3.win 2).blk t).view.emb (ix2 k (j 1))) = V c main_v3 (ix2 k ((((cfg3.win 3).blk t).view.emb j) 1))
    refine congrArg (V c main_v3) (funext fun a => Fin.ext ?_)
    match a with
    | ⟨0, _⟩ => show win3_2.index t (0 : Fin 2) * 256 + 1 * k.val = k.val; omega
    | ⟨1, _⟩ => show win3_2.index t (1 : Fin 2) * 256 + 1 * (j 1).val = win3_3.index t (1 : Fin 2) * 256 + 1 * (j 1).val; omega

/-- An index of the output is in point `t`'s block iff each coordinate is in the block's range on its axis. -/
theorem mem_blk (t : Fin cfg3.N) (i : S10000x256.Idx) :
    i ∈ ((cfg3.win 3).blk t).view.set ↔ ∀ a : Fin 2, win3_3.index t a * S400x256.size a ≤ (i a).val ∧ (i a).val < win3_3.index t a * S400x256.size a + S400x256.size a := by
  show i ∈ ((View.whole main_v8).slice (win3_3.rect t)).set ↔ _
  rw [View.set_slice_whole, Rect.mem_set_unit]
  exact Iff.rfl

/-- Row `r` of the output is in the block of point `r / 400`: the 25 blocks of 400 rows tile the 10000 rows. -/
theorem cover (i : S10000x256.Idx) : ∃ t : Fin cfg3.N, (cfg3.win 3).flush t = true ∧ i ∈ ((cfg3.win 3).blk t).view.set := by
  have hi0 : (i 0).val < 10000 := (i 0).isLt
  have hi1 : (i 1).val < 256 := (i 1).isLt
  have hN : cfg3.N = 25 := N_3
  obtain ⟨t, ht⟩ : ∃ t : Fin cfg3.N, t.val = (i 0).val / 400 := ⟨⟨(i 0).val / 400, by rw [hN]; omega⟩, rfl⟩
  obtain ⟨e0, e1, e2, e3, e4, e5, e6, e7⟩ := idx_facts t
  refine ⟨t, flush3_3 t, ?_⟩
  rw [mem_blk]
  intro a
  match a with
  | ⟨0, _⟩ => show win3_3.index t (0 : Fin 2) * 400 ≤ (i 0).val ∧ (i 0).val < win3_3.index t (0 : Fin 2) * 400 + 400; omega
  | ⟨1, _⟩ => show win3_3.index t (1 : Fin 2) * 256 ≤ (i 1).val ∧ (i 1).val < win3_3.index t (1 : Fin 2) * 256 + 256; omega

/-- The output array after the region: `relu (adj · s) · W` of the three arrays as the region found them. -/
theorem final (c : Dev nD) :
    (dat3 V c).arrAt 3 cfg3.N
      = rowsByCols (relu (rowsByCols (V c main_v6_0 : Mat 10000 10000) (V c main_v7_1 : Mat 10000 256))) (V c main_v3 : Mat 256 256) :=
  (dat3 V c).arrAt_eq_of_cover 3 _ (fun t _ => flushed_eq V c t) cover

end Cert.KernelIdeal.Region3

end
-- ==== Proof.Region4.lean ====
/-
  The last kernel: the reconstruction `adj · s`, computed 400 rows at a time.

  At each of the 25 grid points the body loads rows `400·t … 400·t + 399` of the adjacency and the whole support `s`,
  multiplies them into a zero accumulator and stores the 400×256 result as rows `400·t …` of the output. Rows of a
  product are the product of the rows, so what point `t` writes back is its block of the whole product, and the 25
  blocks tile the output: the array ends holding `adj · s`.
-/
import proofs.«169077_g22617297780800_cont_8to1_845_3_alg».proof.Proof.Gen.KernelIdeal.Frame
import proofs.«169077_g22617297780800_cont_8to1_845_3_alg».proof.Proof.Spec
import Idealize.ShloMosaic.Lib.Pipeline.Value

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx Cert.Lib.PlainDot Cert.GcnAe

variable (V : (c : Dev nD) → (b : Ref sig .tc) → Buf (Elt Ideal) ((c : Thread nD τ).loc b))

theorem zeros : (![0, 0] : Fin 2 → Nat) = fun _ => 0 := funext fun a => by fin_cases a <;> rfl

/-- The body's stored value is the product of the loaded rows by the loaded support. -/
theorem pay_eq (x0 : Vec Ideal S400x10000 .bf16) (x1 : Vec Ideal S10000x256 .bf16) :
    k4_pay1 x0 x1 = rowsByCols (x0 : Mat 400 10000) (x1 : Mat 10000 256) := by
  unfold k4_pay1
  simp only [shapeCast_self]
  exact matmul_zero_eq _ rfl none _ _

/-- The printed index maps over the grid: the adjacency's block and the output's block are both block row `t`, the
    support is fetched whole. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the whole product. -/
theorem flushed_eq (c : Dev nD) (t : Fin cfg4.N) :
    (dat4 V c).flushed 2 t = ((cfg4.win 2).blk t).view.read (Elt Ideal)
      (rowsByCols (V c main_v6_0 : Mat 10000 10000) (V c main_v8 : Mat 10000 256)) := by
  show (cfg4.win 2).cut (grid4.coords t) ((dat4 V c).after 2 t) = _
  rw [after4_2]
  unfold out4_2
  rw [View.canon_unit_zero zeros]
  simp only [View.ld_unit_zero (S := S400x10000) zeros, View.ld_unit_zero (S := S10000x256) zeros]
  rw [pay_eq]
  obtain ⟨e0, e1, e2, e3, e4, e5⟩ := idx_facts t
  funext j
  show rowsByCols (iblk4 V c 0 t) (iblk4 V c 1 t) j
    = rowsByCols (V c main_v6_0 : Mat 10000 10000) (V c main_v8 : Mat 10000 256) (((cfg4.win 2).blk t).view.emb j)
  refine rowsByCols_congr _ _ _ _ j _ (fun k => ?_) (fun k => ?_)
  · show V c main_v6_0 (((cfg4.win 0).blk t).view.emb (ix2 (j 0) k)) = V c main_v6_0 (ix2 ((((cfg4.win 2).blk t).view.emb j) 0) k)
    refine congrArg (V c main_v6_0) (funext fun a => Fin.ext ?_)
    match a with
    | ⟨0, _⟩ => show win4_0.index t (0 : Fin 2) * 400 + 1 * (j 0).val = win4_2.index t (0 : Fin 2) * 400 + 1 * (j 0).val; omega
    | ⟨1, _⟩ => show win4_0.index t (1 : Fin 2) * 10000 + 1 * k.val = k.val; omega
  · show V c main_v8 (((cfg4.win 1).blk t).view.emb (ix2 k (j 1))) = V c main_v8 (ix2 k ((((cfg4.win 2).blk t).view.emb j) 1))
    refine congrArg (V c main_v8) (funext fun a => Fin.ext ?_)
    match a with
    | ⟨0, _⟩ => show win4_1.index t (0 : Fin 2) * 10000 + 1 * k.val = k.val; omega
    | ⟨1, _⟩ => show win4_1.index t (1 : Fin 2) * 256 + 1 * (j 1).val = win4_2.index t (1 : Fin 2) * 256 + 1 * (j 1).val; omega

/-- An index of the output is in point `t`'s block iff each coordinate is in the block's range on its axis. -/
theorem mem_blk (t : Fin cfg4.N) (i : S10000x256.Idx) :
    i ∈ ((cfg4.win 2).blk t).view.set ↔ ∀ a : Fin 2, win4_2.index t a * S400x256.size a ≤ (i a).val ∧ (i a).val < win4_2.index t a * S400x256.size a + S400x256.size a := by
  show i ∈ ((View.whole main_v9).slice (win4_2.rect t)).set ↔ _
  rw [View.set_slice_whole, Rect.mem_set_unit]
  exact Iff.rfl

/-- Row `r` of the output is in the block of point `r / 400`: the 25 blocks of 400 rows tile the 10000 rows. -/
theorem cover (i : S10000x256.Idx) : ∃ t : Fin cfg4.N, (cfg4.win 2).flush t = true ∧ i ∈ ((cfg4.win 2).blk t).view.set := by
  have hi0 : (i 0).val < 10000 := (i 0).isLt
  have hi1 : (i 1).val < 256 := (i 1).isLt
  have hN : cfg4.N = 25 := N_4
  obtain ⟨t, ht⟩ : ∃ t : Fin cfg4.N, t.val = (i 0).val / 400 := ⟨⟨(i 0).val / 400, by rw [hN]; omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 400 ≤ (i 0).val ∧ (i 0).val < win4_2.index t (0 : Fin 2) * 400 + 400; omega
  | ⟨1, _⟩ => show win4_2.index t (1 : Fin 2) * 256 ≤ (i 1).val ∧ (i 1).val < win4_2.index t (1 : Fin 2) * 256 + 256; omega

/-- The output array after the region: the whole product of the adjacency and the support as the region found them. -/
theorem final (c : Dev nD) :
    (dat4 V c).arrAt 2 cfg4.N = rowsByCols (V c main_v6_0 : Mat 10000 10000) (V c main_v8 : Mat 10000 256) :=
  (dat4 V c).arrAt_eq_of_cover 2 _ (fun t _ => flushed_eq V c t) cover

end Cert.KernelIdeal.Region4

end
-- ==== Proof.KernelValue.lean ====
/-
  The kernel program computes the specification.

  The program's memory at each boundary between its segments is a fold from the launch memory. Walking that fold: the
  host operations only change the float format of five arguments, which is the identity on the extended reals; each
  kernel leaves in its outputs the whole-array expression of the arrays it found (one module per kernel), and leaves
  every other buffer alone. So the supports, the adjacency's copy, the code and the reconstruction are, one after the
  other, the specification's arrays of the six launch arrays.
-/
import proofs.«169077_g22617297780800_cont_8to1_845_3_alg».proof.Proof.Region0
import proofs.«169077_g22617297780800_cont_8to1_845_3_alg».proof.Proof.Region1
import proofs.«169077_g22617297780800_cont_8to1_845_3_alg».proof.Proof.Region2
import proofs.«169077_g22617297780800_cont_8to1_845_3_alg».proof.Proof.Region3
import proofs.«169077_g22617297780800_cont_8to1_845_3_alg».proof.Proof.Region4
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo
open Idealize.ShloMosaic.Pipeline (Dat)
open Cert.Lib.PlainDot Cert.GcnAe

variable (m : (ℓ : Loc nD τ sig) → Buf (Elt Ideal) ℓ) (ρ : Dev nD → PrngReg) (c : Dev nD)

/-- The six launch arrays. -/
abbrev X : Mat 10000 256 := m ((c : Thread nD τ).loc main_arg0)
abbrev A : Mat 10000 10000 := m ((c : Thread nD τ).loc main_arg1)
abbrev U1 : Mat 256 256 := m ((c : Thread nD τ).loc main_arg2)
abbrev U2 : Mat 256 128 := m ((c : Thread nD τ).loc main_arg3)
abbrev U3 : Mat 128 256 := m ((c : Thread nD τ).loc main_arg4)
abbrev U4 : Mat 256 256 := m ((c : Thread nD τ).loc main_arg5)

/-! ## After the host operations: five arguments in the 16-bit format, the adjacency untouched -/

theorem host_v0 : (W1 m ρ c (Proc.devRef .tc main_v0) : Mat 256 256) = U1 m c := by
  dsimp only [W1, hostOps0]; after_results <;> rfl
theorem host_v1 : (W1 m ρ c (Proc.devRef .tc main_v1) : Mat 256 128) = U2 m c := by
  dsimp only [W1, hostOps0]; after_results <;> rfl
theorem host_v2 : (W1 m ρ c (Proc.devRef .tc main_v2) : Mat 128 256) = U3 m c := by
  dsimp only [W1, hostOps0]; after_results <;> rfl
theorem host_v3 : (W1 m ρ c (Proc.devRef .tc main_v3) : Mat 256 256) = U4 m c := by
  dsimp only [W1, hostOps0]; after_results <;> rfl
theorem host_v4 : (W1 m ρ c (Proc.devRef .tc main_v4) : Mat 10000 256) = X m c := by
  dsimp only [W1, hostOps0]; after_results <;> rfl
theorem host_arg1 : (W1 m ρ c (Proc.devRef .tc main_arg1) : Mat 10000 10000) = A m c := by
  dsimp only [W1, hostOps0]; after_results <;> rfl

/-! ## After the first kernel: the encoder's first support -/

/-- `x · W1`. -/
abbrev S1 : Mat 10000 256 := rowsByCols (X m c) (U1 m c)

theorem b2_v5 : (W2 m ρ c (Proc.devRef .tc main_v5) : Mat 10000 256) = S1 m c :=
  ((W2_arr m ρ c 2).trans (Region0.final (V1 m ρ) c)).trans (congrArg₂ rowsByCols (host_v4 m ρ c) (host_v0 m ρ c))
theorem b2_arg1 : (W2 m ρ c (Proc.devRef .tc main_arg1) : Mat 10000 10000) = A m c :=
  (W2_of_ne m ρ c main_arg1 (by decide)).trans (host_arg1 m ρ c)
theorem b2_v1 : (W2 m ρ c (Proc.devRef .tc main_v1) : Mat 256 128) = U2 m c :=
  (W2_of_ne m ρ c main_v1 (by decide)).trans (host_v1 m ρ c)
theorem b2_v2 : (W2 m ρ c (Proc.devRef .tc main_v2) : Mat 128 256) = U3 m c :=
  (W2_of_ne m ρ c main_v2 (by decide)).trans (host_v2 m ρ c)
theorem b2_v3 : (W2 m ρ c (Proc.devRef .tc main_v3) : Mat 256 256) = U4 m c :=
  (W2_of_ne m ρ c main_v3 (by decide)).trans (host_v3 m ρ c)

/-! ## After the second kernel: the adjacency's copy and the encoder's second support -/

/-- `relu (adj · (x · W1)) · W2`. -/
abbrev S2 : Mat 10000 128 := rowsByCols (relu (rowsByCols (A m c) (S1 m c))) (U2 m c)

theorem b3_v6_0 : (W3 m ρ c (Proc.devRef .tc main_v6_0) : Mat 10000 10000) = A m c :=
  ((W3_arr m ρ c 3).trans (Region1.final3 (V2 m ρ) c)).trans (b2_arg1 m ρ c)
theorem b3_v6_1 : (W3 m ρ c (Proc.devRef .tc main_v6_1) : Mat 10000 128) = S2 m c :=
  ((W3_arr m ρ c 4).trans (Region1.final4 (V2 m ρ) c)).trans
    (congrArg₂ rowsByCols (congrArg relu (congrArg₂ rowsByCols (b2_arg1 m ρ c) (b2_v5 m ρ c))) (b2_v1 m ρ c))
theorem b3_v2 : (W3 m ρ c (Proc.devRef .tc main_v2) : Mat 128 256) = U3 m c :=
  (W3_of_ne m ρ c main_v2 (by decide)).trans (b2_v2 m ρ c)
theorem b3_v3 : (W3 m ρ c (Proc.devRef .tc main_v3) : Mat 256 256) = U4 m c :=
  (W3_of_ne m ρ c main_v3 (by decide)).trans (b2_v3 m ρ c)

/-! ## After the third kernel: the code and the decoder's first support -/

/-- The code `adj · S2`, and `code · W3`. -/
abbrev Code : Mat 10000 128 := rowsByCols (A m c) (S2 m c)
abbrev S3 : Mat 10000 256 := rowsByCols (Code m c) (U3 m c)

theorem b4_v7_0 : (W4 m ρ c (Proc.devRef .tc main_v7_0) : Mat 10000 128) = Code m c :=
  ((W4_arr m ρ c 3).trans (Region2.final3 (V3 m ρ) c)).trans (congrArg₂ rowsByCols (b3_v6_0 m ρ c) (b3_v6_1 m ρ c))
theorem b4_v7_1 : (W4 m ρ c (Proc.devRef .tc main_v7_1) : Mat 10000 256) = S3 m c :=
  ((W4_arr m ρ c 4).trans (Region2.final4 (V3 m ρ) c)).trans
    (congrArg₂ rowsByCols (congrArg₂ rowsByCols (b3_v6_0 m ρ c) (b3_v6_1 m ρ c)) (b3_v2 m ρ c))
theorem b4_v6_0 : (W4 m ρ c (Proc.devRef .tc main_v6_0) : Mat 10000 10000) = A m c :=
  ((W4_arr m ρ c 0).trans (((dat2 (V3 m ρ) c).arrAt_in 0 rfl _).trans (A_eq2 (V3 m ρ) c 0))).trans (b3_v6_0 m ρ c)
theorem b4_v3 : (W4 m ρ c (Proc.devRef .tc main_v3) : Mat 256 256) = U4 m c :=
  (W4_of_ne m ρ c main_v3 (by decide)).trans (b3_v3 m ρ c)

/-! ## After the fourth kernel: the decoder's second support -/

/-- `relu (adj · S3) · W4`. -/
abbrev S4 : Mat 10000 256 := rowsByCols (relu (rowsByCols (A m c) (S3 m c))) (U4 m c)

theorem b5_v8 : (W5 m ρ c (Proc.devRef .tc main_v8) : Mat 10000 256) = S4 m c :=
  ((W5_arr m ρ c 3).trans (Region3.final (V4 m ρ) c)).trans
    (congrArg₂ rowsByCols (congrArg relu (congrArg₂ rowsByCols (b4_v6_0 m ρ c) (b4_v7_1 m ρ c))) (b4_v3 m ρ c))
theorem b5_v6_0 : (W5 m ρ c (Proc.devRef .tc main_v6_0) : Mat 10000 10000) = A m c :=
  ((W5_arr m ρ c 0).trans (((dat3 (V4 m ρ) c).arrAt_in 0 rfl _).trans (A_eq3 (V4 m ρ) c 0))).trans (b4_v6_0 m ρ c)
theorem b5_v7_0 : (W5 m ρ c (Proc.devRef .tc main_v7_0) : Mat 10000 128) = Code m c :=
  (W5_of_ne m ρ c main_v7_0 (by decide)).trans (b4_v7_0 m ρ c)

/-! ## After the last kernel: the two results -/

/-- The reconstruction is the specification's, of the six launch arrays. -/
theorem recon : (W6 m ρ c (Proc.devRef .tc main_v9) : Mat 10000 256)
    = decoded (X m c) (A m c) (U1 m c) (U2 m c) (U3 m c) (U4 m c) :=
  ((W6_arr m ρ c 2).trans (Region4.final (V5 m ρ) c)).trans (congrArg₂ rowsByCols (b5_v6_0 m ρ c) (b5_v8 m ρ c))

/-- The code is the specification's, of the four launch arrays it depends on. -/
theorem code : (W6 m ρ c (Proc.devRef .tc main_v7_0) : Mat 10000 128) = encoded (X m c) (A m c) (U1 m c) (U2 m c) :=
  (W6_of_ne m ρ c main_v7_0 (by decide)).trans (b5_v7_0 m ρ c)

end Cert.KernelIdeal.KernelValue

end
-- ==== Proof.RefValue.lean ====
/-
  The reference computes the specification.

  The reference is ten operations in a row: a product, a propagation by the adjacency, the rectifier, and so on through
  the four layers. Each host product has plain dimension numbers, so on the extended reals it is the rows-by-columns
  sum; the rectifier is the entrywise maximum with a broadcast of the zero scalar, whose every entry is the value of
  the zero word. Stage by stage the reference's arrays are the specification's.
-/
import proofs.«169077_g22617297780800_cont_8to1_845_3_alg».proof.Proof.Gen.ReferenceIdeal.Read
import proofs.«169077_g22617297780800_cont_8to1_845_3_alg».proof.Proof.Spec

noncomputable section

namespace Cert.ReferenceIdeal.RefValue

open Cert.ReferenceIdeal Cert.ReferenceIdeal.Read Idealize.ShloMosaic Idealize.ShloMosaic.TcCoe
open Cert.Lib.PlainDot Cert.GcnAe

variable (x : Mat 10000 256) (adj : Mat 10000 10000) (W1 : Mat 256 256) (W2 : Mat 256 128) (W3 : Mat 128 256) (W4 : Mat 256 256)

/-- `x · W1`. -/
theorem stage0 : val_main_v0 (F := Ideal) x W1 = rowsByCols x W1 := by
  unfold val_main_v0
  simp only [Host.dotGeneral]
  exact dotGeneral_eq _ rfl _ _ _ _

/-- `adj · (x · W1)`. -/
theorem stage1 : val_main_v1 (F := Ideal) x adj W1 = conv adj x W1 := by
  unfold val_main_v1
  rw [stage0]
  simp only [Host.dotGeneral]
  exact dotGeneral_eq _ rfl _ _ _ _

/-- The encoder's hidden layer. -/
theorem stage2 : val_main_v2 (F := Ideal) x adj W1 = relu (conv adj x W1) := by
  unfold val_main_v2
  rw [stage1]
  rfl

/-- The hidden layer times `W2`. -/
theorem stage3 : val_main_v3 (F := Ideal) x adj W1 W2 = rowsByCols (relu (conv adj x W1)) W2 := by
  unfold val_main_v3
  rw [stage2]
  simp only [Host.dotGeneral]
  exact dotGeneral_eq _ rfl _ _ _ _

/-- The code. -/
theorem code_eq : val_main_v4 (F := Ideal) x adj W1 W2 = encoded x adj W1 W2 := by
  unfold val_main_v4
  rw [stage3]
  simp only [Host.dotGeneral]
  exact dotGeneral_eq _ rfl _ _ _ _

/-- The code times `W3`. -/
theorem stage5 : val_main_v5 (F := Ideal) x adj W1 W2 W3 = rowsByCols (encoded x adj W1 W2) W3 := by
  unfold val_main_v5
  rw [code_eq]
  simp only [Host.dotGeneral]
  exact dotGeneral_eq _ rfl _ _ _ _

/-- Propagated. -/
theorem stage6 : val_main_v6 (F := Ideal) x adj W1 W2 W3 = conv adj (encoded x adj W1 W2) W3 := by
  unfold val_main_v6
  rw [stage5]
  simp only [Host.dotGeneral]
  exact dotGeneral_eq _ rfl _ _ _ _

/-- The decoder's hidden layer. -/
theorem stage7 : val_main_v7 (F := Ideal) x adj W1 W2 W3 = relu (conv adj (encoded x adj W1 W2) W3) := by
  unfold val_main_v7
  rw [stage6]
  rfl

/-- The hidden layer times `W4`. -/
theorem stage8 : val_main_v8 (F := Ideal) x adj W1 W2 W3 W4 = rowsByCols (relu (conv adj (encoded x adj W1 W2) W3)) W4 := by
  unfold val_main_v8
  rw [stage7]
  simp only [Host.dotGeneral]
  exact dotGeneral_eq _ rfl _ _ _ _

/-- The reconstruction. -/
theorem recon_eq : val_main_v9 (F := Ideal) x adj W1 W2 W3 W4 = decoded x adj W1 W2 W3 W4 := by
  unfold val_main_v9
  rw [stage8]
  simp only [Host.dotGeneral]
  exact dotGeneral_eq _ rfl _ _ _ _

end Cert.ReferenceIdeal.RefValue

end
-- ==== Proof.lean ====
/-
  A graph-convolution autoencoder computed by five kernels equals its four-layer reference, on the extended reals.

  The reference applies four layers `act (adj · (h · W))` to the features: the rectifier after the first and the third,
  the identity after the second (the code) and the fourth (the reconstruction). The kernel program computes the same
  products in the same grouping — `x · W1` at once, then four passes over the adjacency in blocks of 400 rows, each
  pass fused with the rectifier and with the next layer's product by its weights — keeping intermediate arrays and a
  copy of the adjacency in a 16-bit format. On the extended reals a change of format is the identity, a product into a
  zero accumulator and the host's product are one rows-by-columns sum, and a block of rows of a product is the
  product of the block of rows; so both programs end with the specification's code and reconstruction
  (Proof/Spec.lean) of the six arguments. No algebraic law beyond these is used, and finiteness of the inputs is not
  needed: the sums are the same sums, term by term.

  Proof/LibPlainDot.lean: the plain product read at an index. Proof/Region0 … Region4.lean: each kernel's outputs as
  whole-array expressions of the arrays it finds. Proof/Results.lean: the program's run with its two results named.
  Proof/KernelValue.lean: the results as the specification of the launch arrays. Proof/RefValue.lean: the reference's
  stages as the specification. The rewriting pass that made the idealized kernel changed no operation, so the
  idealized kernel is the kernel's own text and `preserves` holds with nothing to show.
-/
import proofs.«169077_g22617297780800_cont_8to1_845_3_alg».proof.Defs
import proofs.«169077_g22617297780800_cont_8to1_845_3_alg».proof.Proof.Gen.Kernel
import proofs.«169077_g22617297780800_cont_8to1_845_3_alg».proof.Proof.Gen.Kernel.Skeleton
import proofs.«169077_g22617297780800_cont_8to1_845_3_alg».proof.Proof.Gen.Kernel.Launch
import proofs.«169077_g22617297780800_cont_8to1_845_3_alg».proof.Proof.Gen.Kernel.Points
import proofs.«169077_g22617297780800_cont_8to1_845_3_alg».proof.Proof.Gen.Kernel.Frame
import proofs.«169077_g22617297780800_cont_8to1_845_3_alg».proof.Proof.Gen.KernelIdeal
import proofs.«169077_g22617297780800_cont_8to1_845_3_alg».proof.Proof.Gen.KernelIdeal.Skeleton
import proofs.«169077_g22617297780800_cont_8to1_845_3_alg».proof.Proof.Gen.KernelIdeal.Launch
import proofs.«169077_g22617297780800_cont_8to1_845_3_alg».proof.Proof.Gen.KernelIdeal.Points
import proofs.«169077_g22617297780800_cont_8to1_845_3_alg».proof.Proof.Gen.KernelIdeal.Frame
import proofs.«169077_g22617297780800_cont_8to1_845_3_alg».proof.Proof.Gen.ReferenceIdeal
import proofs.«169077_g22617297780800_cont_8to1_845_3_alg».proof.Proof.Gen.Pre_finite_inputs
import proofs.«169077_g22617297780800_cont_8to1_845_3_alg».proof.Proof.Gen.ReferenceIdeal.Run
import proofs.«169077_g22617297780800_cont_8to1_845_3_alg».proof.Proof.Gen.ReferenceIdeal.Read
import proofs.«169077_g22617297780800_cont_8to1_845_3_alg».proof.Proof.Results
import proofs.«169077_g22617297780800_cont_8to1_845_3_alg».proof.Proof.KernelValue
import proofs.«169077_g22617297780800_cont_8to1_845_3_alg».proof.Proof.RefValue
import Idealize.ShloMosaic.Adequacy
import Idealize.ShloMosaic.Init

noncomputable section

namespace Cert.Proof

open Idealize.ShloMosaic Idealize.ShloMosaic.TcCoe Idealize.SL.Sem Cert.GcnAe

/-- The word-level kernel program terminates without a fault and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs, from memories that agree on the six arguments, end with the specification's reconstruction and
    code of those arguments. -/
theorem algebraic : Cert.algebraic_KernelIdeal_ReferenceIdeal := by
  intro m ρ m' ρ' _ hagree
  refine ⟨fun c => decoded (Cert.KernelIdeal.KernelValue.X m c) (Cert.KernelIdeal.KernelValue.A m c)
      (Cert.KernelIdeal.KernelValue.U1 m c) (Cert.KernelIdeal.KernelValue.U2 m c) (Cert.KernelIdeal.KernelValue.U3 m c)
      (Cert.KernelIdeal.KernelValue.U4 m c),
    fun c => encoded (Cert.KernelIdeal.KernelValue.X m c) (Cert.KernelIdeal.KernelValue.A m c)
      (Cert.KernelIdeal.KernelValue.U1 m c) (Cert.KernelIdeal.KernelValue.U2 m c), ?_, ?_⟩
  · refine (θ_run Cert.KernelIdeal.defs _ _).mono (fun r h c => ?_) (Cert.KernelIdeal.Results.run (F := Ideal) m ρ)
    exact ⟨(h c).1.trans (Cert.KernelIdeal.KernelValue.recon m ρ c),
      (h c).2.1.trans (Cert.KernelIdeal.KernelValue.code m ρ c), (h c).2.2⟩
  · refine (θ_run Cert.ReferenceIdeal.defs _ _).mono (fun r h c => ⟨(h c).1.trans ?_, (h c).2.1.trans ?_, (h c).2.2⟩)
      (Cert.ReferenceIdeal.Value.run (F := Ideal) m' ρ')
    · rw [(hagree c).1, (hagree c).2.1, (hagree c).2.2.1, (hagree c).2.2.2.1, (hagree c).2.2.2.2.1, (hagree c).2.2.2.2.2]
      exact (Cert.ReferenceIdeal.Read.val_main_v9_eq _ _ _ _ _ _).trans (Cert.ReferenceIdeal.RefValue.recon_eq _ _ _ _ _ _)
    · rw [(hagree c).1, (hagree c).2.1, (hagree c).2.2.1, (hagree c).2.2.2.1]
      exact (Cert.ReferenceIdeal.Read.val_main_v4_eq _ _ _ _).trans (Cert.ReferenceIdeal.RefValue.code_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
